-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x1024 .f32) (main_arg1 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8x2048x1024 : Shape := ⟨3, ![8, 2048, 1024]⟩
abbrev S1024x1024 : Shape := ⟨2, ![1024, 1024]⟩
abbrev S1x1024x1024 : Shape := ⟨3, ![1, 1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .bf16⟩
  | .hbm, ⟨3, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x2048x1024.size a
  hwx0_2 : ∀ i : grid0.Coords, EltTy.bits .f32 = 32 ∨ (Rect.block (s := S8x2048x1024) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S8x2048x1024, .f32⟩
  | .hbm, ⟨4, _⟩ => ⟨S_, .f32⟩
  | .hbm, ⟨5, _⟩ => ⟨S8x2048x1024, .f32⟩
  | .hbm, ⟨6, _⟩ => ⟨S8x2048x1024, .i1⟩
  | .hbm, ⟨7, _⟩ => ⟨S8x2048x1024, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S8x2048x1024 : S_.BroadcastsInDim S8x2048x1024 (![] : Fin 0 → Fin S8x2048x1024.rank)
  dot_S8x2048x1024_S1024x1024_S8x2048x1024_2_0_01_1_n_n_wf : DotDims.WF S8x2048x1024 S1024x1024 S8x2048x1024 [2] [0] [0, 1] [1] [] []

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf

class Facts : Prop extends Facts₀ where

variable [Facts]
-- ==== Proof.LogProduct.lean ====
/-
  The value both programs compute, and the one law that joins them.

  For activations x : [8, 2048, 1024] and weights w : [1024, 1024] over the extended reals, the entry at
  (b, s, n) is the clamped logarithm of row (b, s) of x against column n of w:
      log (max (∑ k, x[b, s, k] · w[k, n]) ε),     ε = 2^-126 (the least positive normal single).
  One side computes exactly this. The other splits it by the sign of the product: with the indicator
  u = [product > 0] ∈ {0, 1} it returns  L · u + L · (1 − u)  for the same L. On the extended reals
  L · 1 + L · 0 = L + 0 = L and L · 0 + L · 1 = 0 + L = L for EVERY L, infinite ones included, because
  0 absorbs in the product; so the splitting is the identity and no finiteness of L is needed.
-/
import Idealize.ShloMosaic.PureOps.Ideal
import Idealize.ShloMosaic.PureOps.Ideal.Laws
import Idealize.ShloMosaic.Lib.ValueIdx

noncomputable section

namespace Cert.LogProduct

open Idealize.ShloMosaic Idealize.ShloMosaic.ValueIdx

/-- The activations' shape, [8, 2048, 1024], and the weights', [1024, 1024]. -/
abbrev Acts : Shape := ⟨3, ![8, 2048, 1024]⟩
abbrev Weights : Shape := ⟨2, ![1024, 1024]⟩

/-- Row (b, s) of the activations against column n of the weights: the sum over the shared axis. -/
def rowCol (x : Acts.Idx → EReal) (w : Weights.Idx → EReal) (b : Fin 8) (s : Fin 2048) (n : Fin 1024) : EReal :=
  ∑ k : Fin 1024, x (ix3 b s k) * w (ix2 k n)

/-- The logarithm of a value clamped from below at ε = 2^-126, kept as its binary word. -/
def clampLog (y : EReal) : EReal := Ideal.log (max y (Ideal.ofBits .f32 0x00800000#32))

/-- The whole result array as one function of the two argument arrays, index by index. -/
def value (x : Acts.Idx → EReal) (w : Weights.Idx → EReal) : Acts.Idx → EReal := fun i =>
  clampLog (rowCol x w (i 0) (i 1) (i 2))

theorem value_ix3 (x : Acts.Idx → EReal) (w : Weights.Idx → EReal) (b : Fin 8) (s : Fin 2048) (n : Fin 1024) :
    value x w (ix3 b s n) = clampLog (rowCol x w b s n) := rfl

/-- The word 0x3F800000 is the number one. -/
theorem one_word : Ideal.ofBits .f32 0x3F800000#32 = 1 := by
  simp [Ideal.ofBits, Ideal.ieee, -EReal.coe_mul]; norm_num

/-- Splitting by a one-bit indicator and adding the two parts back is the identity on the extended reals:
    L · u + L · (1 − u) = L for u ∈ {0, 1}, at every L (0 absorbs, so an infinite L is no exception). -/
theorem split_by_indicator (L : EReal) (u : BitVec 1) :
    L * ((u.toNat : ℝ) : EReal) + L * ((1 : EReal) - ((u.toNat : ℝ) : EReal)) = L := by
  have one_sub_one : (1 : EReal) - 1 = 0 := by
    rw [← EReal.coe_one, ← EReal.coe_sub, sub_self, EReal.coe_zero]
  rcases BitVec.eq_zero_or_eq_one u with h | h <;> subst h <;> simp [one_sub_one]

end Cert.LogProduct

end
-- ==== Proof.ReferenceValue.lean ====
/-
  The reference computes the clamped logarithm of the product, split by the product's sign and added back.

  Read one operation at a time, its result at index i = (b, s, n) is
      L · u + L' · (1 − u),
  where P = ∑ k, x[b, s, k] · w[k, n] is the product entry (computed twice, once per branch, by the same sum),
  L = L' = log (max P ε), and u = [P > 0] is the one-bit comparison read back as 0 or 1. Both branches see
  the same P, so this is L · u + L · (1 − u) = L (the indicator law): the reference's array is the common
  value, index by index.
-/
import proofs.«177774_j19490561589867_2_alg».proof.Proof.Gen.ReferenceIdeal.Read
import proofs.«177774_j19490561589867_2_alg».proof.Proof.LogProduct

noncomputable section

namespace Cert.ReferenceIdeal.RefValue

open Cert.ReferenceIdeal Cert.ReferenceIdeal.Read Idealize.ShloMosaic Idealize.ShloMosaic.ValueIdx Cert.LogProduct

/-- A one-bit integer read as a float is the number 0 or 1 it spells. -/
theorem bit_as_float (u : BitVec 1) : FloatOps.uitofp (F := Ideal) .f32 u = ((u.toNat : ℝ) : EReal) := rfl

/-- The first product's left factor sits at (b, s, k), its right factor at (k, n). -/
theorem left0 (i : S8x2048x1024.Idx) (k : Fin 1024) : lidx_main_v0 i k = ix3 (n0 := 8) (n1 := 2048) (n2 := 1024) (i 0) (i 1) k :=
  funext fun a => Fin.ext (by match a with | ⟨0, _⟩ => rfl | ⟨1, _⟩ => rfl | ⟨2, _⟩ => rfl)
theorem right0 (i : S8x2048x1024.Idx) (k : Fin 1024) : ridx_main_v0 i k = ix2 (n0 := 1024) (n1 := 1024) k (i 2) :=
  funext fun a => Fin.ext (by match a with | ⟨0, _⟩ => rfl | ⟨1, _⟩ => rfl)
/-- The second product reads the same places. -/
theorem left1 (i : S8x2048x1024.Idx) (k : Fin 1024) : lidx_main_v1 i k = ix3 (n0 := 8) (n1 := 2048) (n2 := 1024) (i 0) (i 1) k :=
  funext fun a => Fin.ext (by match a with | ⟨0, _⟩ => rfl | ⟨1, _⟩ => rfl | ⟨2, _⟩ => rfl)
theorem right1 (i : S8x2048x1024.Idx) (k : Fin 1024) : ridx_main_v1 i k = ix2 (n0 := 1024) (n1 := 1024) k (i 2) :=
  funext fun a => Fin.ext (by match a with | ⟨0, _⟩ => rfl | ⟨1, _⟩ => rfl)

/-- Each of the reference's two products is the row-by-column sum. -/
theorem product0 (x0 : (⟨S8x2048x1024, .f32⟩ : BufTy).Contents (Elt Ideal)) (x1 : (⟨S1024x1024, .f32⟩ : BufTy).Contents (Elt Ideal)) (i : S8x2048x1024.Idx) :
    val_main_v0 (F := Ideal) x0 x1 i = rowCol x0 x1 (i 0) (i 1) (i 2) := by
  rw [val_main_v0_apply]
  exact Finset.sum_congr rfl fun k _ => by rw [left0, right0]
theorem product1 (x0 : (⟨S8x2048x1024, .f32⟩ : BufTy).Contents (Elt Ideal)) (x1 : (⟨S1024x1024, .f32⟩ : BufTy).Contents (Elt Ideal)) (i : S8x2048x1024.Idx) :
    val_main_v1 (F := Ideal) x0 x1 i = rowCol x0 x1 (i 0) (i 1) (i 2) := by
  rw [val_main_v1_apply]
  exact Finset.sum_congr rfl fun k _ => by rw [left1, right1]

/-- THE REFERENCE IS THE COMMON VALUE: its last stage, at every index, is log (max P ε) of the product entry there —
    the two sign branches recombine by the indicator law. -/
theorem reference_is_value (x0 : (⟨S8x2048x1024, .f32⟩ : BufTy).Contents (Elt Ideal)) (x1 : (⟨S1024x1024, .f32⟩ : BufTy).Contents (Elt Ideal)) :
    val_main_v15 (F := Ideal) x0 x1 = value x0 x1 := by
  funext i
  simp only [val_main_v15_apply, val_main_v10_apply, val_main_v14_apply, val_main_v9_apply, val_main_v13_apply,
    val_main_v8_apply, val_main_v12_apply, val_main_v6_apply, val_main_v4_apply, val_main_v3_apply,
    val_main_v7_apply, val_main_v11_apply, val_main_v5_apply, val_main_v2_apply,
    val_main_cst_apply, val_main_cst_0_apply, val_main_cst_1_apply, val_main_cst_2_apply, product0, product1,
    bit_as_float, Ideal.ofBits_def, Ideal.addf_def, Ideal.subf_def, Ideal.mulf_def, Ideal.maximumf_def,
    Ideal.hostUnary_log_def, one_word]
  exact split_by_indicator _ _

end Cert.ReferenceIdeal.RefValue

end
-- ==== Proof.BodyValue.lean ====
/-
  What the kernel body stores, entry by entry.

  At a grid point the body holds one [1, 1024, 1024] block X of the activations and the whole [1024, 1024]
  weight matrix W. It drops the block's unit axis, multiplies (rows of X against columns of W, summed over the
  shared axis of extent 1024 onto a zero accumulator), clamps from below at ε, takes the logarithm, and puts the
  unit axis back. A change of float format is the identity on the extended reals, so entry (0, r, n) of what it
  stores is  log (max (∑ k, X[0, r, k] · W[k, n]) ε).
-/
import proofs.«177774_j19490561589867_2_alg».proof.Proof.Gen.KernelIdeal.Skeleton
import proofs.«177774_j19490561589867_2_alg».proof.Proof.LogProduct
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx Cert.LogProduct

/-- The body's product: rows of the left operand against columns of the right, one shared axis. -/
abbrev rowsByCols := dot_S1024x1024_S1024x1024_S1024x1024_1_0_0_1_n_n

/-- The left operand is read at the result's row, -/
theorem left_row (i : S1024x1024.Idx) (q : rowsByCols.contr.Idx) : (rowsByCols.lhsIdx i q 0).val = (i 0).val := by
  unfold DotDims.lhsIdx
  rw [dif_neg (show ¬(0 : Fin S1024x1024.rank) ∈ rowsByCols.lhsBatch by decide), dif_pos (show (0 : Fin S1024x1024.rank) ∈ rowsByCols.lhsNonContracting by decide)]
  rfl
/-- and the right operand at the result's column. -/
theorem right_col (i : S1024x1024.Idx) (q : rowsByCols.contr.Idx) : (rowsByCols.rhsIdx i q 1).val = (i 1).val := by
  unfold DotDims.rhsIdx
  rw [dif_neg (show ¬(1 : Fin S1024x1024.rank) ∈ rowsByCols.rhsBatch by decide), dif_pos (show (1 : Fin S1024x1024.rank) ∈ rowsByCols.rhsNonContracting by decide)]
  rfl

/-- THE PRODUCT AT AN ENTRY: onto a zero accumulator, entry (p, n) is ∑ k, l[p, k] · r[k, n]. -/
theorem product_apply (l r : FVec Ideal S1024x1024 .bf16) (p n : Fin 1024) :
    FloatOps.matmul rowsByCols none l r (constant S1024x1024 .f32 0x00000000#32) (ix2 p n)
      = ∑ k : Fin 1024, l (ix2 p k) * r (ix2 k n) := by
  rw [Ideal.matmul_constant_zero_apply, ← Equiv.sum_comp (contrEquiv1 rowsByCols 1024 rfl rfl).symm]
  refine Finset.sum_congr rfl fun k _ => ?_
  have hk := contrEquiv1_symm_val rowsByCols 1024 rfl rfl k
  have el : rowsByCols.lhsIdx (ix2 p n) ((contrEquiv1 rowsByCols 1024 rfl rfl).symm k) = ix2 p k := funext fun a => Fin.ext (by
    match a with
    | ⟨0, _⟩ => exact left_row _ _
    | ⟨1, _⟩ => exact (rowsByCols.lhsIdx_val_of_single rfl _ _).trans hk)
  have er : rowsByCols.rhsIdx (ix2 p n) ((contrEquiv1 rowsByCols 1024 rfl rfl).symm k) = ix2 k n := funext fun a => Fin.ext (by
    match a with
    | ⟨0, _⟩ => exact (rowsByCols.rhsIdx_val_of_single rfl _ _).trans hk
    | ⟨1, _⟩ => exact right_col _ _)
  rw [el, er]

/-- Dropping the block's unit axis: entry (r, k) of the [1024, 1024] view is entry (0, r, k) of the block. -/
theorem drop_unit (x : Vec Ideal S1x1024x1024 .f32) (h : S1x1024x1024.ShapeCasts S1024x1024) (r k : Fin 1024) :
    shapeCast S1024x1024 x h (ix2 r k) = x (ix3 (0 : Fin 1) r k) :=
  (shapeCast_dropUnit_apply ![1024, 1024] x h (ix2 r k)).trans
    (congrArg x (funext fun a => by match a with | ⟨0, _⟩ => rfl | ⟨1, _⟩ => rfl | ⟨2, _⟩ => rfl))

/-- WHAT THE BODY STORES at entry (z, r, n) of its block (z the unit axis): the clamped logarithm of row r of the
    activations block against column n of the weights. -/
theorem stored_apply (x : Vec Ideal S1x1024x1024 .f32) (w : Vec Ideal S1024x1024 .bf16) (z : Fin 1) (r n : Fin 1024) :
    k0_pay1 (F := Ideal) x w (ix3 z r n) = clampLog (∑ k : Fin 1024, x (ix3 (0 : Fin 1) r k) * w (ix2 k n)) := by
  unfold k0_pay1
  refine (shapeCast_addUnit_apply ![1024, 1024] _ _ (ix3 z r n)).trans ?_
  rw [show (fun a : Fin 2 => (ix3 z r n) a.succ) = ix2 r n from funext fun a => by match a with | ⟨0, _⟩ => rfl | ⟨1, _⟩ => rfl]
  show Ideal.log (max (FloatOps.matmul (F := Ideal) rowsByCols none
      (truncf .bf16 (shapeCast S1024x1024 x shapeCasts_S1x1024x1024_S1024x1024) bitsLt_bf16_f32)
      (shapeCast S1024x1024 w shapeCasts_S1024x1024_S1024x1024) (constant S1024x1024 .f32 0x00000000#32) (ix2 r n))
      (Ideal.ofBits .f32 0x00800000#32)) = _
  rw [shapeCast_self, product_apply]
  unfold clampLog
  refine congrArg (fun y => Ideal.log (max y (Ideal.ofBits .f32 0x00800000#32))) (Finset.sum_congr rfl fun k _ => ?_)
  rw [truncf_apply, drop_unit]

end Cert.KernelIdeal.BodyValue

end
-- ==== Proof.ArrayValue.lean ====
/-
  From the sixteen blocks to the whole result array.

  The grid is 8 × 2. Point (b, h) fetches the activations block [1, 1024, 1024] at block index (b, h, 0) — batch b,
  rows 1024·h … 1024·h + 1023, every column — and the whole weight matrix (block index (0, 0) at every point), and
  writes its result to the output block at the same index (b, h, 0). Entry (0, r, n) of what it writes is the clamped
  logarithm of row r of its activations block against column n of the weights, and row r of that block IS row
  (b, 1024·h + r) of the activations array: so the block written is the restriction of ONE whole-array function, the
  common value, to the point's block. Row s of batch b lies in the block of point (b, s / 1024), so the sixteen blocks
  cover the array, and the array ends holding the common value everywhere.

  The weights the region stages were cast to a narrower float format by the host beforehand; on the extended reals
  that cast is the identity, so they are the launch-time weight matrix.
-/
import proofs.«177774_j19490561589867_2_alg».proof.Proof.Gen.KernelIdeal.Value
import proofs.«177774_j19490561589867_2_alg».proof.Proof.BodyValue
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx Cert.LogProduct Cert.KernelIdeal.BodyValue
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices, decided over the sixteen points: the activations block moves with the output block, both
    stay at column block 0, batch index at most 7 and row-half at most 1; the weights block never moves. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (0 : Fin 3) ≤ 7
    ∧ win0_2.index t (1 : Fin 3) ≤ 1
    ∧ win0_2.index t (2 : Fin 3) = 0 :=
  (by decide +kernel : ∀ t : Fin grid0.N, _)

/-- Every (batch, row-half) pair is some point's output block index. -/
theorem block_onto : ∀ (q0 : Fin 8) (q1 : Fin 2), ∃ t : Fin cfg0.N, win0_2.index t = ![q0.val, q1.val, 0] :=
  (by decide +kernel : ∀ (q0 : Fin 8) (q1 : Fin 2), ∃ t : Fin grid0.N, win0_2.index t = ![q0.val, q1.val, 0])

/-- The weights as the region finds them are the launch-time weights: the host's format cast is the identity. -/
theorem weights_as_launched (c : Dev nD) :
    (V m c main_v0 : S1024x1024.Idx → EReal) = m ((c : Thread nD τ).loc main_arg1) := by
  dsimp only [Gen.V, Gen.hostOps0]; after_results; rfl

/-- One block is a restriction of the common value: if row r of the activations block X is row (b, s) of the array A
    and the weights block W is the matrix M, then entry (z, r, n) of what the body stores is the common value of A and
    M at (b, s, n). -/
theorem stored_is_value (X : Vec Ideal S1x1024x1024 .f32) (W : Vec Ideal S1024x1024 .bf16)
    (A : Acts.Idx → EReal) (M : Weights.Idx → EReal) (z : Fin 1) (r n : Fin 1024) (b : Fin 8) (s : Fin 2048)
    (hX : ∀ k : Fin 1024, X (ix3 (0 : Fin 1) r k) = A (ix3 b s k))
    (hW : ∀ k n : Fin 1024, W (ix2 k n) = M (ix2 k n)) :
    k0_pay1 (F := Ideal) X W (ix3 z r n) = value A M (ix3 b s n) := by
  rw [stored_apply, value_ix3]
  unfold rowCol
  exact congrArg clampLog (Finset.sum_congr rfl fun k _ => by rw [hX k, hW k n])

/-- WHAT POINT t WRITES BACK is block t of the common value of the arrays as the region finds them. -/
theorem flushed_eq (c : Dev nD) (t : Fin cfg0.N) :
    (dats m 0 c).flushed 2 t
      = ((cfg0.win 2).blk t).view.read (Elt Ideal) (value (V m c main_arg0) (V m c main_v0)) := by
  rw [Value.flushed2]
  unfold out0_2
  rw [View.canon_unit_zero zeros3]
  simp only [View.ld_unit_zero (S := S1x1024x1024) zeros3, View.ld_unit_zero (S := S1024x1024) zeros2]
  obtain ⟨e0, e1, e2, e3, e4, e5, e6, e7⟩ := block_indices t
  funext j
  have hj1 : (j 1).val < 1024 := (j 1).isLt
  have hj2 : (j 2).val < 1024 := (j 2).isLt
  show k0_pay1 (F := Ideal) (iblk m c 0 t) (iblk m c 1 t) j
      = value (V m c main_arg0) (V m c main_v0) (((cfg0.win 2).blk t).view.emb j)
  -- row (j 1) of the activations block is row (b, 1024·h + j 1) of the activations array
  have hX : ∀ k : Fin 1024, iblk m c 0 t (ix3 (0 : Fin 1) (⟨(j 1).val, hj1⟩ : Fin 1024) k)
      = V m c main_arg0 (ix3 (⟨win0_2.index t (0 : Fin 3), by omega⟩ : Fin 8)
          (⟨win0_2.index t (1 : Fin 3) * 1024 + (j 1).val, by omega⟩ : Fin 2048) k) := fun k => by
    show V m c main_arg0 (((cfg0.win 0).blk t).view.emb (ix3 (0 : Fin 1) (⟨(j 1).val, hj1⟩ : Fin 1024) k)) = _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 1024 + 1 * (j 1).val = win0_2.index t (1 : Fin 3) * 1024 + (j 1).val; omega
    | ⟨2, _⟩ => show win0_0.index t (2 : Fin 3) * 1024 + 1 * k.val = k.val; omega
  -- the weights block is the whole weight matrix
  have hW : ∀ k n : Fin 1024, iblk m c 1 t (ix2 k n) = V m c main_v0 (ix2 k n) := fun k n => by
    show V m c main_v0 (((cfg0.win 1).blk t).view.emb (ix2 k n)) = _
    refine congrArg (V m c main_v0) (funext fun a => Fin.ext ?_)
    match a with
    | ⟨0, _⟩ => show win0_1.index t (0 : Fin 2) * 1024 + 1 * k.val = k.val; omega
    | ⟨1, _⟩ => show win0_1.index t (1 : Fin 2) * 1024 + 1 * n.val = n.val; omega
  -- the block coordinate, and where it sits in the output array
  have hjj : j = ix3 (⟨(j 0).val, (j 0).isLt⟩ : Fin 1) (⟨(j 1).val, hj1⟩ : Fin 1024) (⟨(j 2).val, hj2⟩ : Fin 1024) :=
    funext fun a => by match a with | ⟨0, _⟩ => rfl | ⟨1, _⟩ => rfl | ⟨2, _⟩ => rfl
  have hj0 : (j 0).val < 1 := (j 0).isLt
  have he : ((cfg0.win 2).blk t).view.emb j
      = ix3 (⟨win0_2.index t (0 : Fin 3), by omega⟩ : Fin 8)
          (⟨win0_2.index t (1 : Fin 3) * 1024 + (j 1).val, by omega⟩ : Fin 2048) (⟨(j 2).val, hj2⟩ : Fin 1024) :=
    funext fun a => Fin.ext (by
      match a with
      | ⟨0, _⟩ => show win0_2.index t (0 : Fin 3) * 1 + 1 * (j 0).val = win0_2.index t (0 : Fin 3); omega
      | ⟨1, _⟩ => show win0_2.index t (1 : Fin 3) * 1024 + 1 * (j 1).val = win0_2.index t (1 : Fin 3) * 1024 + (j 1).val; omega
      | ⟨2, _⟩ => show win0_2.index t (2 : Fin 3) * 1024 + 1 * (j 2).val = (j 2).val; omega)
  rw [he]
  refine (congrArg (k0_pay1 (F := Ideal) (iblk m c 0 t) (iblk m c 1 t)) hjj).trans ?_
  exact stored_is_value (iblk m c 0 t) (iblk m c 1 t) (V m c main_arg0) (V m c main_v0)
    (⟨(j 0).val, (j 0).isLt⟩ : Fin 1) (⟨(j 1).val, hj1⟩ : Fin 1024) (⟨(j 2).val, hj2⟩ : Fin 1024)
    (⟨win0_2.index t (0 : Fin 3), by omega⟩ : Fin 8) (⟨win0_2.index t (1 : Fin 3) * 1024 + (j 1).val, by omega⟩ : Fin 2048) hX hW

/-- An index of the output array is in point t's block iff each coordinate is in the block's range on its axis. -/
theorem mem_block (t : Fin cfg0.N) (i : S8x2048x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v1).slice (win0_2.rect t)).set ↔ _
  rw [View.set_slice_whole, Rect.mem_set_unit]
  exact Iff.rfl

/-- THE BLOCKS COVER THE ARRAY: index (b, s, n) lies in the block of the point whose output block index is
    (b, s / 1024, 0), and every point writes its block back. -/
theorem covered (i : S8x2048x1024.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1024 := (i 2).isLt
  obtain ⟨t, ht⟩ := block_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE RESULT ARRAY after the run is the common value of the launch-time arguments. -/
theorem final (c : Dev nD) :
    (dats m 0 c).arrAt 2 cfg0.N
      = value (m ((c : Thread nD τ).loc main_arg0)) (m ((c : Thread nD τ).loc main_arg1)) := by
  have h := (dats m 0 c).arrAt_eq_of_cover 2 (value (V m c main_arg0) (V m c main_v0))
    (fun t _ => flushed_eq m c t) covered
  rw [h, V_main_arg0 m c, weights_as_launched m c]

/-- The kernel's run, read: every weakly fair execution terminates with the result array at the common value of the
    launch-time arguments, the arguments unchanged. -/
theorem run : θ_run defs (onTc (τ := τ) (main (F := Ideal))) ⟨m, fun _ => 0, ρ⟩ fun r => ∀ c : Dev nD,
      r.2.mem ((c : Thread nD τ).loc main_v1)
        = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  Both programs compute, at every index (b, s, n) of an [8, 2048, 1024] array,
      log (max (∑ k, x[b, s, k] · w[k, n]) ε),     ε = 2^-126,
  over the extended reals, where a change of float format is the identity.

  One program forms the product sixteen [1024, 1024] blocks at a time, each block's rows against the whole weight
  matrix, and stores the clamped logarithm of each block: every block is a restriction of the one whole-array
  function above, and the blocks cover the array (Proof/BodyValue, Proof/ArrayValue). The other forms the same
  product twice, takes the clamped logarithm L of each, and returns L · u + L · (1 − u) for the indicator
  u = [product > 0]; since u is 0 or 1 and 0 absorbs in the product of extended reals, that is L again, with no
  appeal to finiteness (Proof/LogProduct, Proof/ReferenceValue). So from memories that agree on the two argument
  arrays both runs end with equal result arrays. Nothing was rewritten between the word-level program and its
  reading over the extended reals, so that conjunct is trivial; each program's termination with its arguments
  unchanged is its frame.
-/
import proofs.«177774_j19490561589867_2_alg».proof.Defs
import proofs.«177774_j19490561589867_2_alg».proof.Proof.Gen.Kernel
import proofs.«177774_j19490561589867_2_alg».proof.Proof.Gen.Kernel.Skeleton
import proofs.«177774_j19490561589867_2_alg».proof.Proof.Gen.Kernel.Launch
import proofs.«177774_j19490561589867_2_alg».proof.Proof.Gen.Kernel.Points
import proofs.«177774_j19490561589867_2_alg».proof.Proof.Gen.Kernel.Frame
import proofs.«177774_j19490561589867_2_alg».proof.Proof.Gen.KernelIdeal
import proofs.«177774_j19490561589867_2_alg».proof.Proof.Gen.KernelIdeal.Skeleton
import proofs.«177774_j19490561589867_2_alg».proof.Proof.Gen.KernelIdeal.Launch
import proofs.«177774_j19490561589867_2_alg».proof.Proof.Gen.KernelIdeal.Points
import proofs.«177774_j19490561589867_2_alg».proof.Proof.Gen.KernelIdeal.Frame
import proofs.«177774_j19490561589867_2_alg».proof.Proof.Gen.ReferenceIdeal
import proofs.«177774_j19490561589867_2_alg».proof.Proof.Gen.Pre_finite_inputs
import proofs.«177774_j19490561589867_2_alg».proof.Proof.Gen.KernelIdeal.Value
import proofs.«177774_j19490561589867_2_alg».proof.Proof.Gen.ReferenceIdeal.Run
import proofs.«177774_j19490561589867_2_alg».proof.Proof.Gen.ReferenceIdeal.Read
import proofs.«177774_j19490561589867_2_alg».proof.Proof.ReferenceValue
import proofs.«177774_j19490561589867_2_alg».proof.Proof.ArrayValue
import Idealize.ShloMosaic.Adequacy
import Idealize.ShloMosaic.Init

noncomputable section

namespace Cert.Proof

open Idealize.ShloMosaic Idealize.ShloMosaic.TcCoe Idealize.SL.Sem

/-- Each program terminates on every weakly fair execution with its arguments unchanged. -/
theorem frame_word : Cert.frame_Kernel := fun m ρ _ => Cert.Kernel.Gen.frame m ρ
theorem frame_exact : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the word-level program and its reading over the extended reals. -/
theorem preserves : Cert.preserves_Kernel_KernelIdeal := trivial

/-- From memories agreeing on the two arguments, both programs end with the result array at the clamped logarithm
    of the product of those arguments: the blockwise program by its blocks covering the array, the other by the
    indicator law recombining its two sign branches. -/
theorem algebraic : Cert.algebraic_KernelIdeal_ReferenceIdeal := by
  intro m ρ m' ρ' _ hagree
  refine ⟨fun c => Cert.LogProduct.value (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.reference_is_value,
    (hagree c).1, (hagree c).2]

theorem claim : Cert.Claim := ⟨Cert.Kernel.Gen.facts, Cert.KernelIdeal.Gen.facts, Cert.ReferenceIdeal.Gen.facts, Cert.Pre_finite_inputs.Gen.facts,
  frame_word, frame_exact, frame_reference, preserves, algebraic⟩

end Cert.Proof

end
